-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x1 : Shape := ⟨2, ![4096, 1]⟩
abbrev S512x2048 : Shape := ⟨2, ![512, 2048]⟩
abbrev S512x1 : Shape := ⟨2, ![512, 1]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S4096x1, .f32⟩
  | .hbm, ⟨6, _⟩ => ⟨S4096x1, .f32⟩
  | .hbm, ⟨7, _⟩ => ⟨S8192x4096, .f32⟩
  | .hbm, ⟨8, _⟩ => ⟨S4x2048x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 2], ![false, false, false]⟩

def k0_cond2 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S4096x1 : S4096.ShapeCasts S4096x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  shapeCasts_S8192x4096_S4x2048x4096 : S8192x4096.ShapeCasts S4x2048x4096
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .i32 = 32 ∨ (Rect.block (s := S4096x4096) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x4096.size a
  hwx0_4 : ∀ i : grid0.Coords, EltTy.bits .f32 = 32 ∨ (Rect.block (s := S8192x4096) S512x512.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4096x1, .f32⟩
  | .hbm, ⟨9, _⟩ => ⟨S4096x4096, .f32⟩
  | .hbm, ⟨10, _⟩ => ⟨S4096x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The function both programs compute, over the extended reals.

  The weights are stored quantized: entry (o, i) of the weight matrix is (q[o, i] − zp[o]) · scale[o],
  the integer q[o, i] read signed and exactly, with one zero point and one scale per output feature o.
  The layer multiplies every row of activations by the transposed weight matrix:

      out[b, s, o] = ∑ i, x[b, s, i] · ((q[o, i] − zp[o]) · scale[o]).

  The kernel works on the activations flattened to 8192 rows (row r = 2048 · b + s); `lin2` is the same
  function on the flattened rows, and `lin_eq_lin2` says so. The kernel also cuts the sum over i in two halves
  and adds them into a zero accumulator one after the other; `halves` says that this is the whole sum (addition of
  extended reals is commutative and associative, so no finiteness is needed).
-/
import Idealize.ShloMosaic.PureOps.Ideal
import Idealize.ShloMosaic.Lib.ValueIdx

noncomputable section

namespace Cert.QLinear

open Idealize.ShloMosaic Idealize.ShloMosaic.ValueIdx

/-- The activations `x`, f32[4, 2048, 4096]. -/
abbrev SX : Shape := ⟨3, ![4, 2048, 4096]⟩
/-- The quantized weights `q`, i32[4096, 4096] (output feature, input feature). -/
abbrev SQ : Shape := ⟨2, ![4096, 4096]⟩
/-- The per-output-feature vectors `scale` and `zp`, f32[4096]. -/
abbrev SV : Shape := ⟨1, ![4096]⟩
/-- The activations and the result flattened to rows, f32[8192, 4096]. -/
abbrev SM : Shape := ⟨2, ![8192, 4096]⟩

/-- Entry (o, i) of the dequantized weight matrix. -/
def deq (q : SQ.Idx → BitVec 32) (sc zp : SV.Idx → EReal) (o i : Fin 4096) : EReal :=
  ((((q (ix2 o i)).toInt : ℝ) : EReal) - zp (ix1 o)) * sc (ix1 o)

/-- Entry i of flattened row r of the activations: x[r / 2048, r % 2048, i]. -/
def row (x : SX.Idx → EReal) (r : Fin 8192) (i : Fin 4096) : EReal :=
  x (ix3 (⟨r.val / 2048, by have := r.isLt; omega⟩ : Fin 4) (⟨r.val % 2048, Nat.mod_lt _ (by decide)⟩ : Fin 2048) i)

/-- The layer on flattened rows: out2[r, o] = ∑ i, x2[r, i] · w[o, i]. -/
def lin2 (x : SX.Idx → EReal) (q : SQ.Idx → BitVec 32) (sc zp : SV.Idx → EReal) : SM.Idx → EReal :=
  fun j => ∑ i : Fin 4096, row x (j 0) i * deq q sc zp (j 1) i

/-- The layer: out[b, s, o] = ∑ i, x[b, s, i] · w[o, i]. -/
def lin (x : SX.Idx → EReal) (q : SQ.Idx → BitVec 32) (sc zp : SV.Idx → EReal) : SX.Idx → EReal :=
  fun j => ∑ i : Fin 4096, x (ix3 (j 0) (j 1) i) * deq q sc zp (j 2) i

/-- The flattened row of (b, s). -/
def flat (b : Fin 4) (s : Fin 2048) : Fin 8192 := ⟨2048 * b.val + s.val, by have := b.isLt; have := s.isLt; omega⟩

theorem row_flat (x : SX.Idx → EReal) (b : Fin 4) (s : Fin 2048) (i : Fin 4096) : row x (flat b s) i = x (ix3 b s i) := by
  unfold row flat
  congr 1
  have hb := b.isLt
  have hs := s.isLt
  funext a
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-- The layer at (b, s, o) is the flattened layer at row 2048 · b + s. -/
theorem lin_eq_lin2 (x : SX.Idx → EReal) (q : SQ.Idx → BitVec 32) (sc zp : SV.Idx → EReal) (b : Fin 4) (s : Fin 2048) (o : Fin 4096) :
    lin x q sc zp (ix3 b s o) = lin2 x q sc zp (ix2 (flat b s) o) := by
  unfold lin lin2
  refine Finset.sum_congr rfl fun i _ => ?_
  show x (ix3 b s i) * _ = row x (flat b s) i * _
  rw [row_flat]

/-- Input feature k of the lower half, and of the upper half. -/
def lo (k : Fin 2048) : Fin 4096 := ⟨k.val, by have := k.isLt; omega⟩
def hi (k : Fin 2048) : Fin 4096 := ⟨2048 + k.val, by have := k.isLt; omega⟩

/-- The sum over the 4096 input features, taken as the kernel takes it: zero, plus the lower half, plus the upper half. -/
theorem halves (f : Fin 4096 → EReal) : (0 + ∑ k : Fin 2048, f (lo k)) + ∑ k : Fin 2048, f (hi k) = ∑ i : Fin 4096, f i := by
  rw [zero_add]
  refine Eq.trans ?_ (Fin.sum_univ_add (a := 2048) (b := 2048) (f : Fin (2048 + 2048) → EReal)).symm
  congr 1

end Cert.QLinear

end
-- ==== Proof.RefIsLin.lean ====
/-
  The reference program computes the layer.

  The reference program dequantizes the whole weight matrix first: it converts the stored integers to
  reals, subtracts the zero point of the output feature, and multiplies by the scale of the output feature,
  the two vectors being spread along the input-feature axis. It then contracts the last axis of the
  activations with the input-feature axis of that matrix. Read at the output index (b, s, o) this is

      ∑ k, x[b, s, k] · ((q[o, k] − zp[o]) · scale[o]),

  which is the layer `lin` of the specification, term by term.
-/
import proofs.«155369_j85607288143950_1_alg».proof.Proof.Gen.ReferenceIdeal.Read
import proofs.«155369_j85607288143950_1_alg».proof.Proof.Spec

noncomputable section
namespace Cert.QLinear.Ref
open Idealize.ShloMosaic Idealize.ShloMosaic.ValueIdx Cert.ReferenceIdeal Cert.ReferenceIdeal.Read

/-- The contraction reads the activations at (b, s, k): the two free axes of the output index and the summed axis. -/
theorem lidx_ix3 (b : Fin 4) (s : Fin 2048) (o k : Fin 4096) : lidx_main_v7 (ix3 b s o) k = ix3 b s k :=
  funext fun a => Fin.ext (by
    match a with
    | ⟨0, _⟩ => rfl
    | ⟨1, _⟩ => rfl
    | ⟨2, _⟩ => rfl)

/-- The contraction reads the weight matrix at (o, k): the output feature and the summed input feature. -/
theorem ridx_ix3 (b : Fin 4) (s : Fin 2048) (o k : Fin 4096) : ridx_main_v7 (ix3 b s o) k = ix2 o k :=
  funext fun a => Fin.ext (by
    match a with
    | ⟨0, _⟩ => rfl
    | ⟨1, _⟩ => rfl)

/-- Spreading a per-output-feature vector over the matrix reads it, at (o, k), at o (zero point). -/
theorem idx_zp (o k : Fin 4096) : idx_main_v1 (idx_main_v2 (ix2 o k)) = ix1 o :=
  funext fun a => Fin.ext (by
    match a with
    | ⟨0, _⟩ => rfl)

/-- Spreading a per-output-feature vector over the matrix reads it, at (o, k), at o (scale). -/
theorem idx_sc (o k : Fin 4096) : idx_main_v4 (idx_main_v5 (ix2 o k)) = ix1 o :=
  funext fun a => Fin.ext (by
    match a with
    | ⟨0, _⟩ => rfl)

/-- Entry (o, k) of the matrix the reference program builds is the dequantized weight (q[o, k] − zp[o]) · scale[o]. -/
theorem weight_apply (x1 : (⟨S4096x4096, .i32⟩ : BufTy).Contents (Elt Ideal))
    (x2 x3 : (⟨S4096, .f32⟩ : BufTy).Contents (Elt Ideal)) (o k : Fin 4096) :
    val_main_v6 (F := Ideal) x1 x2 x3 (ix2 o k) = Cert.QLinear.deq x1 x2 x3 o k := by
  rw [val_main_v6_apply, val_main_v3_apply, val_main_v0_apply, val_main_v2_apply, val_main_v1_apply,
    val_main_v5_apply, val_main_v4_apply, idx_zp, idx_sc]
  rfl

/-- The reference program, read at (b, s, o), is the sum over the input features k of x[b, s, k] times the
dequantized weight (q[o, k] − zp[o]) · scale[o]: it is the layer. -/
theorem ref_is_lin (x0 : (⟨S4x2048x4096, .f32⟩ : BufTy).Contents (Elt Ideal)) (x1 : (⟨S4096x4096, .i32⟩ : BufTy).Contents (Elt Ideal))
    (x2 x3 : (⟨S4096, .f32⟩ : BufTy).Contents (Elt Ideal)) :
    val_main_v7 (F := Ideal) x0 x1 x2 x3 = Cert.QLinear.lin x0 x1 x2 x3 := by
  funext j
  obtain ⟨b, s, o, rfl⟩ : ∃ (b : Fin 4) (s : Fin 2048) (o : Fin 4096), j = ix3 b s o := ⟨j 0, j 1, j 2, eq_ix3 j⟩
  rw [val_main_v7_apply]
  unfold Cert.QLinear.lin
  refine Finset.sum_congr rfl fun k _ => ?_
  rw [lidx_ix3, ridx_ix3, weight_apply]

end Cert.QLinear.Ref
end
-- ==== Proof.Pieces.lean ====
/-
  What one run of the kernel body leaves behind, as values.

  The body keeps a 512 × 512 accumulator in a scratch buffer. At a grid point whose reduction coordinate is 0 it
  first clears the accumulator, then adds this point's partial product into it; at a point whose reduction
  coordinate is 1 (the last one) it adds this point's partial product into what the point before left, and copies the
  accumulator into the output block. The body's one arithmetic term is `k0_pay2 x0 x1 zp sc acc`: `acc` plus the
  product of the activation block `x0` with the transposed dequantized weight block built from `x1`, `zp`, `sc`;
  `k0_pay1` is the zero block. (The body loads the zero points from its fourth operand and the scales from its third.)
-/
import proofs.«155369_j85607288143950_1_alg».proof.Proof.Gen.KernelIdeal.Frame
import Idealize.ShloMosaic.Lib.Pipeline.Value
import Idealize.ShloMosaic.Lib.Tactic

set_option maxRecDepth 16384

noncomputable section

namespace Cert.QLinear.Body

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- At a point with reduction coordinate 0 the accumulator ends at the zero block plus this point's partial
    product: the body's second store covers the scratch buffer, and the accumulator it loaded is the zero block its first
    store had just written. -/
theorem scratch_first (c : Dev nD) (i : grid0.Coords) (a3 : Memref sig .tc .vmem S512x2048 .f32) (h3 : a3.IsWhole)
    (a4 : Memref sig .tc .vmem S512x2048 .i32) (h4 : a4.IsWhole) (a5 : Memref sig .tc .vmem S512x1 .f32) (h5 : a5.IsWhole)
    (a6 : Memref sig .tc .vmem S512x1 .f32) (h6 : a6.IsWhole) (a7 : Memref sig .tc .vmem S512x512 .f32) (h7 : a7.IsWhole)
    (a8 : Memref sig .tc .vmem S512x512 .f32) (h8 : a8.IsWhole) (hc0 : cond0_0 i) (hc1 : ¬cond0_1 i)
    (x0 : Vec F S512x2048 .f32) (x1 : Vec F S512x2048 .i32) (x2 : Vec F S512x1 .f32) (x3 : Vec F S512x1 .f32) :
    sout0_A_0 c i a3 h3 a4 h4 a5 h5 a6 h6 a7 h7 a8 h8 hc0 hc1 x0 x1 x2 x3 = k0_pay2 x0 x1 x3 x2 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x512) hz, View.readCov_unit_zero (S := S512x512) _ hz]
  simp only [View.readAt_eq_ld, h3.read_unread, h4.read_unread, h5.read_unread, h6.read_unread, h8.read_unread,
    View.ld_unit_zero (S := S512x2048) hz, View.ld_unit_zero (S := S512x1) hz, View.ld_unit_zero (S := S512x512) hz]

/-- At a point with reduction coordinate 1 the accumulator ends at what the point before left (`xs0`) plus this
    point's partial product: one store covering the scratch buffer. -/
theorem scratch_last (c : Dev nD) (i : grid0.Coords) (a3 : Memref sig .tc .vmem S512x2048 .f32) (h3 : a3.IsWhole)
    (a4 : Memref sig .tc .vmem S512x2048 .i32) (h4 : a4.IsWhole) (a5 : Memref sig .tc .vmem S512x1 .f32) (h5 : a5.IsWhole)
    (a6 : Memref sig .tc .vmem S512x1 .f32) (h6 : a6.IsWhole) (a7 : Memref sig .tc .vmem S512x512 .f32) (h7 : a7.IsWhole)
    (a8 : Memref sig .tc .vmem S512x512 .f32) (h8 : a8.IsWhole) (hc0 : ¬cond0_0 i) (hc1 : cond0_1 i)
    (x0 : Vec F S512x2048 .f32) (x1 : Vec F S512x2048 .i32) (x2 : Vec F S512x1 .f32) (x3 : Vec F S512x1 .f32) (xs0 : Vec F S512x512 .f32) :
    sout0_B_0 c i a3 h3 a4 h4 a5 h5 a6 h6 a7 h7 a8 h8 hc0 hc1 x0 x1 x2 x3 xs0 = k0_pay2 x0 x1 x3 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h6.read_unread, h8.read_unread,
    View.ld_unit_zero (S := S512x2048) hz, View.ld_unit_zero (S := S512x1) hz, View.ld_unit_zero (S := S512x512) hz]

/-- At such a point the output block ends at the same value: the body copies the accumulator it has just stored,
    whole, into the output's buffer. -/
theorem out_last (c : Dev nD) (i : grid0.Coords) (a3 : Memref sig .tc .vmem S512x2048 .f32) (h3 : a3.IsWhole)
    (a4 : Memref sig .tc .vmem S512x2048 .i32) (h4 : a4.IsWhole) (a5 : Memref sig .tc .vmem S512x1 .f32) (h5 : a5.IsWhole)
    (a6 : Memref sig .tc .vmem S512x1 .f32) (h6 : a6.IsWhole) (a7 : Memref sig .tc .vmem S512x512 .f32) (h7 : a7.IsWhole)
    (a8 : Memref sig .tc .vmem S512x512 .f32) (h8 : a8.IsWhole) (hc0 : ¬cond0_0 i) (hc1 : cond0_1 i)
    (x0 : Vec F S512x2048 .f32) (x1 : Vec F S512x2048 .i32) (x2 : Vec F S512x1 .f32) (x3 : Vec F S512x1 .f32) (xs0 : Vec F S512x512 .f32) :
    out0_B_4 c i a3 h3 a4 h4 a5 h5 a6 h6 a7 h7 a8 h8 hc0 hc1 x0 x1 x2 x3 xs0 = k0_pay2 x0 x1 x3 x2 xs0 := by
  unfold out0_B_4
  rw [View.read_writes_eq_canon _ _ _ (cover0_B_4 c i a3 h3 a4 h4 a5 h5 a6 h6 a7 h7 a8 h8 hc0 hc1 x0 x1 x2 x3 xs0)]
  unfold kernelRun0_B
  dsimp only
  sl_unfold_words
  rw [View.canon_unit_zero hz, View.readCov_unit_zero (S := S512x512) _ hz]
  simp only [View.readAt_eq_ld, h3.read_unread, h4.read_unread, h5.read_unread, h6.read_unread, h8.read_unread,
    View.ld_unit_zero (S := S512x2048) hz, View.ld_unit_zero (S := S512x1) hz, View.ld_unit_zero (S := S512x512) hz]

end Cert.QLinear.Body

end
-- ==== Proof.Payload.lean ====
/-
  The arithmetic of one step of the kernel body, read at an index, over the extended reals.

  The body keeps a 512 × 512 block of partial sums. On the first step of the contraction it writes the zero
  block; on every step it adds to entry (p, r) of the block the sum, over the 2048 input features k of the
  step's slice, of the activation x[p, k] times the dequantized weight (q[r, k] − zp[r]) · scale[r]. Over the
  extended reals the narrowing of the two factors changes nothing, the integer q[r, k] is read signed and
  exactly, and a product of blocks accumulated into the zero block is the plain sum of products. The zero point
  and the scale are columns (512 × 1) spread along the input features, so at (r, k) they are read at (r, 0).
-/
import proofs.«155369_j85607288143950_1_alg».proof.Proof.Gen.KernelIdeal.Skeleton
import proofs.«155369_j85607288143950_1_alg».proof.Proof.Spec
import Idealize.ShloMosaic.Lib.ValueIdx
import Idealize.ShloMosaic.Lib.Pipeline.Value
import Idealize.ShloMosaic.PureOps.Ideal.Laws

noncomputable section
namespace Cert.QLinear.Body
open Idealize.ShloMosaic Idealize.ShloMosaic.ValueIdx Cert.KernelIdeal Cert.KernelIdeal.Gen

/-- Every entry of the block written on the first step is zero: the block is the f32 word of all zero bits
    repeated, and that word is the extended real 0. -/
theorem zero_block_apply (j : S512x512.Idx) : k0_pay1 (F := Ideal) j = 0 := by
  unfold k0_pay1
  rw [shapeCast_self]
  exact Ideal.ofBits_zero_f32

/-- A column (512 × 1) spread along 2048 input features, read at (r, k), is the column at (r, 0): the first
    axis has more than one entry and is kept, the second has exactly one and is read at 0. -/
theorem spread_apply (y : Vec Ideal S512x1 .f32) (r : Fin 512) (k : Fin 2048) :
    broadcastTo S512x2048 (shapeCast S512x1 y shapeCasts_S512x1_S512x1) broadcasts_S512x1_S512x2048 (ix2 r k)
      = y (ix2 r (0 : Fin 1)) := by
  rw [shapeCast_self]
  exact broadcastTo_apply y broadcasts_S512x1_S512x2048 (ix2 r k) (ix2 r (0 : Fin 1)) (fun a => match a with
    | ⟨0, _⟩ => by show r.val = if (512 : Nat) = 1 then 0 else r.val; rw [if_neg (by decide)]
    | ⟨1, _⟩ => by show 0 = if (1 : Nat) = 1 then 0 else k.val; rw [if_pos rfl])

/-- The left factor's index at output entry j and contraction position q keeps j's row. -/
theorem lhs_row (j : S512x512.Idx) (q : dot_S512x2048_S512x2048_S512x512_1_1_0_0_n_n.contr.Idx) :
    (dot_S512x2048_S512x2048_S512x512_1_1_0_0_n_n.lhsIdx j q 0).val = (j 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl

/-- The left factor's second coordinate is the contraction position. -/
theorem lhs_col (j : S512x512.Idx) (q : dot_S512x2048_S512x2048_S512x512_1_1_0_0_n_n.contr.Idx) :
    (dot_S512x2048_S512x2048_S512x512_1_1_0_0_n_n.lhsIdx j q 1).val = (q ⟨0, by decide⟩).val :=
  dot_S512x2048_S512x2048_S512x512_1_1_0_0_n_n.lhsIdx_val_of_single rfl j q

/-- The right factor's index at output entry j and contraction position q keeps j's column as its row. -/
theorem rhs_row (j : S512x512.Idx) (q : dot_S512x2048_S512x2048_S512x512_1_1_0_0_n_n.contr.Idx) :
    (dot_S512x2048_S512x2048_S512x512_1_1_0_0_n_n.rhsIdx j q 0).val = (j 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl

/-- The right factor's second coordinate is the contraction position. -/
theorem rhs_col (j : S512x512.Idx) (q : dot_S512x2048_S512x2048_S512x512_1_1_0_0_n_n.contr.Idx) :
    (dot_S512x2048_S512x2048_S512x512_1_1_0_0_n_n.rhsIdx j q 1).val = (q ⟨0, by decide⟩).val :=
  dot_S512x2048_S512x2048_S512x512_1_1_0_0_n_n.rhsIdx_val_of_single rfl j q

/-- A product of a 512 × 2048 block with the transpose of a 512 × 2048 block, accumulated into the zero block, read
    at (p, r): the sum over the 2048 shared positions k of a[p, k] · b[r, k]. -/
theorem product_apply {φ₁ φ₂ : FTy} (a : FVec Ideal S512x2048 φ₁) (b : FVec Ideal S512x2048 φ₂) (p r : Fin 512) :
    matmul dot_S512x2048_S512x2048_S512x512_1_1_0_0_n_n none a b (constant S512x512 .f32 0x00000000#32) (ix2 p r)
      = ∑ k : Fin 2048, a (ix2 p k) * b (ix2 r k) := by
  simp only [matmul]
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p r) ((contrEquiv1 dot_S512x2048_S512x2048_S512x512_1_1_0_0_n_n 2048 rfl rfl).symm k) = ix2 p k := funext fun a => Fin.ext (by
    match a with
    | ⟨0, _⟩ => exact lhs_row _ _
    | ⟨1, _⟩ => exact (lhs_col _ _).trans hk)
  have er : dot_S512x2048_S512x2048_S512x512_1_1_0_0_n_n.rhsIdx (ix2 p r) ((contrEquiv1 dot_S512x2048_S512x2048_S512x512_1_1_0_0_n_n 2048 rfl rfl).symm k) = ix2 r k := funext fun a => Fin.ext (by
    match a with
    | ⟨0, _⟩ => exact rhs_row _ _
    | ⟨1, _⟩ => exact (rhs_col _ _).trans hk)
  rw [el, er]

/-- One step at entry (p, r): the accumulator there plus the sum over the step's 2048 input features k of
    x[p, k] · ((q[r, k] − zp[r]) · scale[r]), the integer read signed and exactly. -/
theorem step_apply (v3 : Vec Ideal S512x2048 .f32) (v6 : Vec Ideal S512x2048 .i32) (v8 v12 : Vec Ideal S512x1 .f32)
    (v17 : Vec Ideal S512x512 .f32) (p r : Fin 512) :
    k0_pay2 (F := Ideal) v3 v6 v8 v12 v17 (ix2 p r)
      = v17 (ix2 p r) + ∑ k : Fin 2048, v3 (ix2 p k) * (((((v6 (ix2 r k)).toInt : ℝ) : EReal) - v8 (ix2 r (0 : Fin 1))) * v12 (ix2 r (0 : Fin 1))) := by
  unfold k0_pay2
  rw [shapeCast_self, shapeCast_self]
  show v17 (ix2 p r) + _ = _
  refine congrArg (v17 (ix2 p r) + ·) ?_
  refine (product_apply _ _ p r).trans ?_
  refine Finset.sum_congr rfl fun k _ => ?_
  show v3 (ix2 p k) * (((((v6 (ix2 r k)).toInt : ℝ) : EReal) - _) * _) = _
  rw [spread_apply v8 r k, spread_apply v12 r k]

end Cert.QLinear.Body
end
-- ==== Proof.Blocks.lean ====
/-
  What the kernel's windows read, in terms of the argument arrays.

  Before the kernel runs, the activations x[4, 2048, 4096] are flattened to rows (row 2048 · b + s holds x[b, s, ·])
  and the two per-output-feature vectors are turned into 4096 × 1 columns. The grid has 16 × 8 × 2 points; point
  number t has row-block coordinate t / 16, output-feature-block coordinate (t / 2) % 8 and reduction coordinate
  t % 2. At point t the kernel is handed
    · rows 512 · (t / 16) + p, input features 2048 · (t % 2) + k of the flattened activations,
    · output features 512 · ((t / 2) % 8) + r, input features 2048 · (t % 2) + k of the quantized weights,
    · entries 512 · ((t / 2) % 8) + r of the scale column and of the zero-point column.
-/
import proofs.«155369_j85607288143950_1_alg».proof.Proof.Gen.KernelIdeal.Frame
import proofs.«155369_j85607288143950_1_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.QLinear.Blocks

open Cert.QLinear

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## The arrays the kernel's windows are cut from -/

/-- The flattened activations are the argument `x` read at the same row-major position. -/
theorem V_x (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The scale column is the argument `scale` read at the same position. -/
theorem V_sc (c : Dev nD) : (V m c main_v1 : S4096x1.Idx → EReal)
    = shapeCast S4096x1 (m ((c : Thread nD τ).loc main_arg2)) shapeCasts_S4096_S4096x1 := by
  show StableHlo.after hostOps0 (fun b => m (c, b)) (Proc.devRef .tc main_v1) = _
  after_results
  rfl

/-- The zero-point column is the argument `zero_point` read at the same position. -/
theorem V_zp (c : Dev nD) : (V m c main_v2 : S4096x1.Idx → EReal)
    = shapeCast S4096x1 (m ((c : Thread nD τ).loc main_arg3)) shapeCasts_S4096_S4096x1 := by
  show StableHlo.after hostOps0 (fun b => m (c, b)) (Proc.devRef .tc main_v2) = _
  after_results
  rfl

/-- Entry (R, I) of the flattened activations is x[R / 2048, R % 2048, I]. -/
theorem V_x_apply (c : Dev nD) (R : Fin 8192) (I : Fin 4096) :
    (V m c main_v0 : S8192x4096.Idx → EReal) (ix2 R I) = row (m ((c : Thread nD τ).loc main_arg0)) R I := by
  rw [V_x]
  unfold row
  refine shapeCast_apply _ _ (ix2 R I) _ ?_
  show ((⟨3, ![4, 2048, 4096]⟩ : Shape).rowMajor _).val = ((⟨2, ![8192, 4096]⟩ : Shape).rowMajor _).val
  rw [Shape.rowMajor_val_three, Shape.rowMajor_val_two]
  show ((R.val / 2048) * 2048 + R.val % 2048) * 4096 + I.val = R.val * 4096 + I.val
  have := Nat.div_add_mod R.val 2048
  omega

/-- Entry (R, 0) of the scale column is scale[R]. -/
theorem V_sc_apply (c : Dev nD) (R : Fin 4096) :
    (V m c main_v1 : S4096x1.Idx → EReal) (ix2 R (0 : Fin 1)) = (m ((c : Thread nD τ).loc main_arg2) : S4096.Idx → EReal) (ix1 R) := by
  rw [V_sc]
  refine shapeCast_apply _ _ (ix2 R (0 : Fin 1)) (ix1 R) ?_
  show ((⟨1, ![4096]⟩ : Shape).rowMajor _).val = ((⟨2, ![4096, 1]⟩ : Shape).rowMajor _).val
  rw [Shape.rowMajor_val_one, Shape.rowMajor_val_two]
  show R.val = R.val * 1 + 0
  omega

/-- Entry (R, 0) of the zero-point column is zp[R]. -/
theorem V_zp_apply (c : Dev nD) (R : Fin 4096) :
    (V m c main_v2 : S4096x1.Idx → EReal) (ix2 R (0 : Fin 1)) = (m ((c : Thread nD τ).loc main_arg3) : S4096.Idx → EReal) (ix1 R) := by
  rw [V_zp]
  refine shapeCast_apply _ _ (ix2 R (0 : Fin 1)) (ix1 R) ?_
  show ((⟨1, ![4096]⟩ : Shape).rowMajor _).val = ((⟨2, ![4096, 1]⟩ : Shape).rowMajor _).val
  rw [Shape.rowMajor_val_one, Shape.rowMajor_val_two]
  show R.val = R.val * 1 + 0
  omega

/-! ## A grid point's coordinates, and the rows and features its blocks hold -/

theorem lt256 (t : Fin cfg0.N) : t.val < 256 := lt_of_lt_of_eq t.isLt (show cfg0.N = 256 from N_0)

/-- Row p of point t's row block, among the 8192 flattened rows. -/
def xrow (t : Fin cfg0.N) (p : Fin 512) : Fin 8192 := ⟨512 * (t.val / 16) + p.val, by have := lt256 t; have := p.isLt; omega⟩
/-- Output feature r of point t's output-feature block. -/
def ofeat (t : Fin cfg0.N) (r : Fin 512) : Fin 4096 := ⟨512 * ((t.val / 2) % 8) + r.val, by have := r.isLt; omega⟩
/-- Input feature k of point t's half of the input features. -/
def ifeat (t : Fin cfg0.N) (k : Fin 2048) : Fin 4096 := ⟨2048 * (t.val % 2) + k.val, by have := k.isLt; omega⟩

/-- The block indices of the five windows at point t, decided over the 256 points. -/
theorem idx_x : ∀ t : Fin cfg0.N, win0_0.index t (0 : Fin 2) = t.val / 16 ∧ win0_0.index t (1 : Fin 2) = t.val % 2 :=
  (by decide +kernel : ∀ t : Fin grid0.N, win0_0.index t (0 : Fin 2) = t.val / 16 ∧ win0_0.index t (1 : Fin 2) = t.val % 2)
theorem idx_q : ∀ t : Fin cfg0.N, win0_1.index t (0 : Fin 2) = (t.val / 2) % 8 ∧ win0_1.index t (1 : Fin 2) = t.val % 2 :=
  (by decide +kernel : ∀ t : Fin grid0.N, win0_1.index t (0 : Fin 2) = (t.val / 2) % 8 ∧ win0_1.index t (1 : Fin 2) = t.val % 2)
theorem idx_sc : ∀ t : Fin cfg0.N, win0_2.index t (0 : Fin 2) = (t.val / 2) % 8 ∧ win0_2.index t (1 : Fin 2) = 0 :=
  (by decide +kernel : ∀ t : Fin grid0.N, win0_2.index t (0 : Fin 2) = (t.val / 2) % 8 ∧ win0_2.index t (1 : Fin 2) = 0)
theorem idx_zp : ∀ t : Fin cfg0.N, win0_3.index t (0 : Fin 2) = (t.val / 2) % 8 ∧ win0_3.index t (1 : Fin 2) = 0 :=
  (by decide +kernel : ∀ t : Fin grid0.N, win0_3.index t (0 : Fin 2) = (t.val / 2) % 8 ∧ win0_3.index t (1 : Fin 2) = 0)
theorem idx_o : ∀ t : Fin cfg0.N, win0_4.index t (0 : Fin 2) = t.val / 16 ∧ win0_4.index t (1 : Fin 2) = (t.val / 2) % 8 :=
  (by decide +kernel : ∀ t : Fin grid0.N, win0_4.index t (0 : Fin 2) = t.val / 16 ∧ win0_4.index t (1 : Fin 2) = (t.val / 2) % 8)

/-! ## The input blocks at a point -/

/-- The activation block at point t: entry (p, k) is x2[xrow t p, ifeat t k]. -/
theorem xblk_apply (c : Dev nD) (t : Fin cfg0.N) (p : Fin 512) (k : Fin 2048) :
    (iblk m c 0 t : Vec Ideal S512x2048 .f32) (ix2 p k) = row (m ((c : Thread nD τ).loc main_arg0)) (xrow t p) (ifeat t k) := by
  rw [← V_x_apply m c (xrow t p) (ifeat t k)]
  unfold iblk
  rw [View.read_apply]
  show V m c main_v0 _ = V m c main_v0 _
  congr 1
  funext a
  apply Fin.ext
  match a with
  | ⟨0, _⟩ => show win0_0.index t 0 * 512 + 1 * p.val = 512 * (t.val / 16) + p.val; rw [(idx_x t).1]; omega
  | ⟨1, _⟩ => show win0_0.index t 1 * 2048 + 1 * k.val = 2048 * (t.val % 2) + k.val; rw [(idx_x t).2]; omega

/-- The quantized-weight block at point t: entry (r, k) is q[ofeat t r, ifeat t k]. -/
theorem qblk_apply (c : Dev nD) (t : Fin cfg0.N) (r : Fin 512) (k : Fin 2048) :
    (iblk m c 1 t : Vec Ideal S512x2048 .i32) (ix2 r k)
      = (m ((c : Thread nD τ).loc main_arg1) : S4096x4096.Idx → BitVec 32) (ix2 (ofeat t r) (ifeat t k)) := by
  rw [← V_main_arg1 m c]
  unfold iblk
  rw [View.read_apply]
  show V m c main_arg1 _ = V m c main_arg1 _
  congr 1
  funext a
  apply Fin.ext
  match a with
  | ⟨0, _⟩ => show win0_1.index t 0 * 512 + 1 * r.val = 512 * ((t.val / 2) % 8) + r.val; rw [(idx_q t).1]; omega
  | ⟨1, _⟩ => show win0_1.index t 1 * 2048 + 1 * k.val = 2048 * (t.val % 2) + k.val; rw [(idx_q t).2]; omega

/-- The scale block at point t: entry (r, 0) is scale[ofeat t r]. -/
theorem scblk_apply (c : Dev nD) (t : Fin cfg0.N) (r : Fin 512) :
    (iblk m c 2 t : Vec Ideal S512x1 .f32) (ix2 r (0 : Fin 1))
      = (m ((c : Thread nD τ).loc main_arg2) : S4096.Idx → EReal) (ix1 (ofeat t r)) := by
  rw [← V_sc_apply m c (ofeat t r)]
  unfold iblk
  rw [View.read_apply]
  show V m c main_v1 _ = V m c main_v1 _
  congr 1
  funext a
  apply Fin.ext
  match a with
  | ⟨0, _⟩ => show win0_2.index t 0 * 512 + 1 * r.val = 512 * ((t.val / 2) % 8) + r.val; rw [(idx_sc t).1]; omega
  | ⟨1, _⟩ => show win0_2.index t 1 * 1 + 1 * 0 = 0; rw [(idx_sc t).2]

/-- The zero-point block at point t: entry (r, 0) is zp[ofeat t r]. -/
theorem zpblk_apply (c : Dev nD) (t : Fin cfg0.N) (r : Fin 512) :
    (iblk m c 3 t : Vec Ideal S512x1 .f32) (ix2 r (0 : Fin 1))
      = (m ((c : Thread nD τ).loc main_arg3) : S4096.Idx → EReal) (ix1 (ofeat t r)) := by
  rw [← V_zp_apply m c (ofeat t r)]
  unfold iblk
  rw [View.read_apply]
  show V m c main_v2 _ = V m c main_v2 _
  congr 1
  funext a
  apply Fin.ext
  match a with
  | ⟨0, _⟩ => show win0_3.index t 0 * 512 + 1 * r.val = 512 * ((t.val / 2) % 8) + r.val; rw [(idx_zp t).1]; omega
  | ⟨1, _⟩ => show win0_3.index t 1 * 1 + 1 * 0 = 0; rw [(idx_zp t).2]

end Cert.QLinear.Blocks

end
-- ==== Proof.Accum.lean ====
/-
  The accumulation over the two reduction steps.

  The two grid points 2n and 2n + 1 share their row block and their output-feature block and differ only in the
  half of the input features they see. Point 2n leaves in the accumulator the zero block plus the partial product over
  the lower half; point 2n + 1 adds the partial product over the upper half and writes the sum to the output block.
  So what point 2n + 1 writes, at (p, r), is the whole sum over the 4096 input features: entry
  (row block · 512 + p, feature block · 512 + r) of the flattened layer.
-/
import proofs.«155369_j85607288143950_1_alg».proof.Proof.Pieces
import proofs.«155369_j85607288143950_1_alg».proof.Proof.Payload
import proofs.«155369_j85607288143950_1_alg».proof.Proof.Blocks

set_option maxRecDepth 16384

noncomputable section

namespace Cert.QLinear.Accum

open Idealize.ShloMosaic Idealize.ShloMosaic.TcCoe Idealize.SL.Sem Idealize.ShloMosaic.ValueIdx
open Cert.KernelIdeal Cert.KernelIdeal.Gen
open Cert.QLinear Cert.QLinear.Body Cert.QLinear.Blocks

variable (m : (ℓ : Loc nD τ sig) → Buf (Elt Ideal) ℓ)

/-- The flattened layer of the argument arrays on core `c`. -/
def layer2 (c : Dev nD) : S8192x4096.Idx → EReal :=
  lin2 (m ((c : Thread nD τ).loc main_arg0)) (m ((c : Thread nD τ).loc main_arg1))
    (m ((c : Thread nD τ).loc main_arg2)) (m ((c : Thread nD τ).loc main_arg3))

/-- The body's arithmetic at point `t`, on the accumulator `acc`: the blocks are the point's. -/
def stepAt (c : Dev nD) (t : Fin cfg0.N) (acc : Vec Ideal S512x512 .f32) : Vec Ideal S512x512 .f32 :=
  k0_pay2 (F := Ideal) (iblk m c 0 t) (iblk m c 1 t) (iblk m c 3 t) (iblk m c 2 t) acc

/-- At (p, r) the step adds to the accumulator the products, over the point's half of the input features, of row
    `xrow t p` of the flattened activations with output feature `ofeat t r` of the dequantized weights. -/
theorem stepAt_apply (c : Dev nD) (t : Fin cfg0.N) (acc : Vec Ideal S512x512 .f32) (p r : Fin 512) :
    stepAt m c t acc (ix2 p r)
      = acc (ix2 p r) + ∑ k : Fin 2048, row (m ((c : Thread nD τ).loc main_arg0)) (xrow t p) (ifeat t k)
          * deq (m ((c : Thread nD τ).loc main_arg1)) (m ((c : Thread nD τ).loc main_arg2)) (m ((c : Thread nD τ).loc main_arg3)) (ofeat t r) (ifeat t k) := by
  unfold stepAt
  refine (step_apply (iblk m c 0 t) (iblk m c 1 t) (iblk m c 3 t) (iblk m c 2 t) acc p r).trans ?_
  refine congrArg (acc (ix2 p r) + ·) (Finset.sum_congr rfl fun k _ => ?_)
  rw [xblk_apply m c t p k, qblk_apply m c t r k, zpblk_apply m c t r, scblk_apply m c t r]
  rfl

/-- After a point with reduction coordinate 0 the accumulator holds the step applied to the zero block. -/
theorem scratch_even (c : Dev nD) (t : Fin cfg0.N) (h0 : t.val % 2 = 0) :
    (outsAt0 m c t.val t.isLt).2 = stepAt m c t (k0_pay1 (F := Ideal)) := by
  have h1 : ¬t.val % 2 = 1 := by omega
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- After a point with reduction coordinate 1 the output block holds the step applied to what the point before left
    in the accumulator. -/
theorem out_odd (c : Dev nD) (t : Fin cfg0.N) (h1 : t.val % 2 = 1) :
    (outsAt0 m c t.val t.isLt).1
      = stepAt m c t (outsAt0 m c (t.val - 1) (Nat.lt_of_le_of_lt (Nat.sub_le _ _) t.isLt)).2 := by
  have h0 : ¬t.val % 2 = 0 := by omega
  rw [outsAt0_B m c t h0 h1]
  dsimp only
  exact out_last (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h1)
    (iblk m c 0 t) (iblk m c 1 t) (iblk m c 2 t) (iblk m c 3 t)
    (outsAt0 m c (t.val - 1) (Nat.lt_of_le_of_lt (Nat.sub_le _ _) t.isLt)).2

/-- What a point with reduction coordinate 1 leaves in the output block is the block of the flattened layer at the
    point's rows and output features: zero, plus the lower half of the sum (from the point before), plus the upper half. -/
theorem out_odd_apply (c : Dev nD) (t : Fin cfg0.N) (h1 : t.val % 2 = 1) (p r : Fin 512) :
    (outsAt0 m c t.val t.isLt).1 (ix2 p r) = layer2 m c (ix2 (xrow t p) (ofeat t r)) := by
  have hlt : t.val - 1 < cfg0.N := Nat.lt_of_le_of_lt (Nat.sub_le _ _) t.isLt
  have h0' : (⟨t.val - 1, hlt⟩ : Fin cfg0.N).val % 2 = 0 := by show (t.val - 1) % 2 = 0; omega
  rw [out_odd m c t h1, stepAt_apply]
  rw [show (outsAt0 m c (t.val - 1) hlt).2 = stepAt m c ⟨t.val - 1, hlt⟩ (k0_pay1 (F := Ideal)) from scratch_even m c ⟨t.val - 1, hlt⟩ h0']
  rw [stepAt_apply, zero_block_apply]
  have ex : xrow ⟨t.val - 1, hlt⟩ p = xrow t p := Fin.ext (by show 512 * ((t.val - 1) / 16) + p.val = 512 * (t.val / 16) + p.val; omega)
  have eo : ofeat ⟨t.val - 1, hlt⟩ r = ofeat t r := Fin.ext (by show 512 * (((t.val - 1) / 2) % 8) + r.val = 512 * ((t.val / 2) % 8) + r.val; omega)
  have el : ∀ k : Fin 2048, ifeat ⟨t.val - 1, hlt⟩ k = lo k := fun k => Fin.ext (by show 2048 * ((t.val - 1) % 2) + k.val = k.val; omega)
  have eh : ∀ k : Fin 2048, ifeat t k = hi k := fun k => Fin.ext (by show 2048 * (t.val % 2) + k.val = 2048 + k.val; omega)
  rw [ex, eo]
  simp only [el, eh]
  exact halves fun i => row (m ((c : Thread nD τ).loc main_arg0)) (xrow t p) i
    * deq (m ((c : Thread nD τ).loc main_arg1)) (m ((c : Thread nD τ).loc main_arg2)) (m ((c : Thread nD τ).loc main_arg3)) (ofeat t r) i

end Cert.QLinear.Accum

end
-- ==== Proof.Flush.lean ====
/-
  From the blocks the kernel writes back to its whole result array.

  The output window's block at grid point t is rows 512 · (t / 16) …, output features 512 · ((t / 2) % 8) … of the
  8192 × 4096 result; it is written back exactly at the points with reduction coordinate 1, and what is written
  there is that block of the flattened layer. Every entry (R, O) of the result lies in the block of the point
  16 · (R / 512) + 2 · (O / 512) + 1, so after the run the result array is the flattened layer.
-/
import proofs.«155369_j85607288143950_1_alg».proof.Proof.Accum

set_option maxRecDepth 16384

noncomputable section

namespace Cert.QLinear.Result

open Idealize.ShloMosaic Idealize.ShloMosaic.TcCoe Idealize.SL.Sem Idealize.ShloMosaic.ValueIdx
open Idealize.ShloMosaic.Pipeline (Dat)
open Cert.KernelIdeal Cert.KernelIdeal.Gen
open Cert.QLinear Cert.QLinear.Blocks Cert.QLinear.Accum

variable (m : (ℓ : Loc nD τ sig) → Buf (Elt Ideal) ℓ)

/-- What a point with reduction coordinate 1 writes back is its block of the flattened layer. -/
theorem flushed_eq (c : Dev nD) (t : Fin cfg0.N) (hf : (cfg0.win 4).flush t = true) :
    (dats m 0 c).flushed 4 t = ((cfg0.win 4).blk t).view.read (Elt Ideal) (layer2 m c) := by
  have h1 : t.val % 2 = 1 := (flush0_4 t).mp hf
  show (cfg0.win 4).cut (grid0.coords t) ((dats m 0 c).after 4 t) = _
  rw [after0_4]
  funext j
  rw [View.read_apply]
  have hj0 : (j 0).val < 512 := (j 0).isLt
  have hj1 : (j 1).val < 512 := (j 1).isLt
  show (outsAt0 m c t.val t.isLt).1 _ = layer2 m c _
  refine Eq.trans (congrArg (outsAt0 m c t.val t.isLt).1
    (?_ : _ = ix2 (⟨(j 0).val, hj0⟩ : Fin 512) (⟨(j 1).val, hj1⟩ : Fin 512))) ?_
  · funext a
    match a with
    | ⟨0, _⟩ => rfl
    | ⟨1, _⟩ => rfl
  rw [out_odd_apply m c t h1]
  congr 1
  funext a
  apply Fin.ext
  match a with
  | ⟨0, _⟩ => show 512 * (t.val / 16) + (j 0).val = win0_4.index t 0 * 512 + 1 * (j 0).val; rw [(idx_o t).1]; omega
  | ⟨1, _⟩ => show 512 * ((t.val / 2) % 8) + (j 1).val = win0_4.index t 1 * 512 + 1 * (j 1).val; rw [(idx_o t).2]; omega

/-- An entry of the result array is in point t's block iff each coordinate is in the block's range on its axis. -/
theorem mem_blk (t : Fin cfg0.N) (i : S8192x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v3).slice (win0_4.rect t)).set ↔ _
  rw [View.set_slice_whole, Rect.mem_set_unit]
  exact Iff.rfl

/-- Every entry (R, O) of the result is written back by the point 16 · (R / 512) + 2 · (O / 512) + 1. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  have ht : 16 * ((i 0).val / 512) + 2 * ((i 1).val / 512) + 1 < cfg0.N := by rw [hN]; omega
  refine ⟨⟨16 * ((i 0).val / 512) + 2 * ((i 1).val / 512) + 1, ht⟩, (flush0_4 _).mpr (by show (16 * ((i 0).val / 512) + 2 * ((i 1).val / 512) + 1) % 2 = 1; omega), ?_⟩
  rw [mem_blk]
  intro a
  match a with
  | ⟨0, _⟩ =>
    show win0_4.index ⟨_, ht⟩ 0 * 512 ≤ (i 0).val ∧ (i 0).val < win0_4.index ⟨_, ht⟩ 0 * 512 + 512
    rw [(idx_o ⟨_, ht⟩).1]
    show (16 * ((i 0).val / 512) + 2 * ((i 1).val / 512) + 1) / 16 * 512 ≤ (i 0).val ∧ (i 0).val < (16 * ((i 0).val / 512) + 2 * ((i 1).val / 512) + 1) / 16 * 512 + 512
    omega
  | ⟨1, _⟩ =>
    show win0_4.index ⟨_, ht⟩ 1 * 512 ≤ (i 1).val ∧ (i 1).val < win0_4.index ⟨_, ht⟩ 1 * 512 + 512
    rw [(idx_o ⟨_, ht⟩).2]
    show (16 * ((i 0).val / 512) + 2 * ((i 1).val / 512) + 1) / 2 % 8 * 512 ≤ (i 1).val ∧ (i 1).val < (16 * ((i 0).val / 512) + 2 * ((i 1).val / 512) + 1) / 2 % 8 * 512 + 512
    omega

/-- After the run the kernel's result array is the flattened layer of the argument arrays. -/
theorem final (c : Dev nD) : (dats m 0 c).arrAt 4 cfg0.N = layer2 m c :=
  (dats m 0 c).arrAt_eq_of_cover 4 (layer2 m c) (flushed_eq m c) covered

end Cert.QLinear.Result

end
-- ==== Proof.KernelRun.lean ====
/-
  The kernel program's run, read: its result is the layer.

  After the kernel, the program reshapes the 8192 × 4096 result to [4, 2048, 4096]: entry (b, s, o) is entry
  (2048 · b + s, o) of the flattened layer, which is the layer at (b, s, o). The argument arrays end as they
  started.
-/
import proofs.«155369_j85607288143950_1_alg».proof.Proof.Flush
import Idealize.ShloMosaic.Lib.StableHlo.Run

set_option maxRecDepth 16384

noncomputable section

namespace Cert.QLinear.Result

open Idealize.ShloMosaic Idealize.ShloMosaic.TcCoe Idealize.SL.Sem Idealize.ShloMosaic.ValueIdx
open Idealize.ShloMosaic.Pipeline (Dat)
open Cert.KernelIdeal Cert.KernelIdeal.Gen
open Cert.QLinear Cert.QLinear.Blocks Cert.QLinear.Accum

variable (m : (ℓ : Loc nD τ sig) → Buf (Elt Ideal) ℓ) (ρ : Dev nD → PrngReg)

/-- The layer of the argument arrays on core `c`. -/
def layer (c : Dev nD) : S4x2048x4096.Idx → EReal :=
  lin (m ((c : Thread nD τ).loc main_arg0)) (m ((c : Thread nD τ).loc main_arg1))
    (m ((c : Thread nD τ).loc main_arg2)) (m ((c : Thread nD τ).loc main_arg3))

/-- The flattened layer reshaped to [4, 2048, 4096] is the layer: (b, s, o) and (2048 · b + s, o) are the same
    row-major position. -/
theorem reshape_layer2 (c : Dev nD) :
    shapeCast S4x2048x4096 (layer2 m c) shapeCasts_S8192x4096_S4x2048x4096 = layer m c := by
  funext j
  obtain ⟨b, s, o, rfl⟩ : ∃ (b : Fin 4) (s : Fin 2048) (o : Fin 4096), j = ix3 b s o := ⟨j 0, j 1, j 2, eq_ix3 j⟩
  refine (shapeCast_apply _ _ (ix3 b s o) (ix2 (flat b s) o) ?_).trans ?_
  · show ((⟨2, ![8192, 4096]⟩ : Shape).rowMajor _).val = ((⟨3, ![4, 2048, 4096]⟩ : Shape).rowMajor _).val
    rw [Shape.rowMajor_val_three, Shape.rowMajor_val_two]
    show (2048 * b.val + s.val) * 4096 + o.val = (b.val * 2048 + s.val) * 4096 + o.val
    omega
  · exact (lin_eq_lin2 _ _ _ _ b s o).symm

/-- The program's result buffer after the run: the reshape of the kernel's result array. -/
theorem tail_result (c : Dev nD) :
    Pipeline.afterTail₀ cfgs (dats m) 0 (V0 m) [hostOps1] c main_v4 = layer m c := by
  unfold Pipeline.afterTail₀
  show StableHlo.after hostOps1 _ (Proc.devRef .tc main_v4) = _
  after_results
  rw [show Pipeline.withArrays spec0 c (V0 m c) (fun w => (dats m 0 c).arrAt w cfg0.N) (Proc.devRef .tc main_v3) = layer2 m c from
    (Pipeline.withArrays_arr spec0 launch0.win.arr_inj c _ _ 4).trans (final m c)]
  exact reshape_layer2 m c

/-- Every weakly fair execution of the kernel program terminates with its result at the layer of the argument
    arrays and the arguments unchanged. -/
theorem run : θ_run defs (onTc (τ := τ) (main (F := Ideal))) ⟨m, fun _ => 0, ρ⟩ fun r => ∀ c : Dev nD,
      r.2.mem ((c.tc : Thread nD τ).loc main_v4) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.QLinear.Result

end
-- ==== Proof.lean ====
/-
  A quantized linear layer: the tiled kernel against its reference, over the extended reals.

  Both programs compute out[b, s, o] = ∑ i, x[b, s, i] · ((q[o, i] − zp[o]) · scale[o]) over the 4096 input
  features i, with the integer weights q read signed and exactly.

  The reference dequantizes the whole weight matrix and contracts it with the activations in one step. The kernel
  flattens the activations to 8192 rows and runs over a 16 × 8 × 2 grid: for each 512 × 512 block of the result it
  takes the sum in two halves of 2048 input features, the first half added into a cleared accumulator, the second
  added to that and written out; the narrowing of the factors before the product is the identity here. A sum of
  extended reals may be taken in any grouping, so the two halves make the whole sum and no finiteness of the inputs is
  used. The kernel's idealization rewrote nothing, so the word-level kernel and the idealized one are one text.
-/
import proofs.«155369_j85607288143950_1_alg».proof.Defs
import proofs.«155369_j85607288143950_1_alg».proof.Proof.Gen.Kernel
import proofs.«155369_j85607288143950_1_alg».proof.Proof.Gen.Kernel.Skeleton
import proofs.«155369_j85607288143950_1_alg».proof.Proof.Gen.Kernel.Launch
import proofs.«155369_j85607288143950_1_alg».proof.Proof.Gen.Kernel.Points
import proofs.«155369_j85607288143950_1_alg».proof.Proof.Gen.Kernel.Frame
import proofs.«155369_j85607288143950_1_alg».proof.Proof.Gen.KernelIdeal
import proofs.«155369_j85607288143950_1_alg».proof.Proof.Gen.KernelIdeal.Skeleton
import proofs.«155369_j85607288143950_1_alg».proof.Proof.Gen.KernelIdeal.Launch
import proofs.«155369_j85607288143950_1_alg».proof.Proof.Gen.KernelIdeal.Points
import proofs.«155369_j85607288143950_1_alg».proof.Proof.Gen.KernelIdeal.Frame
import proofs.«155369_j85607288143950_1_alg».proof.Proof.Gen.ReferenceIdeal
import proofs.«155369_j85607288143950_1_alg».proof.Proof.Gen.Pre_finite_inputs
import proofs.«155369_j85607288143950_1_alg».proof.Proof.Gen.ReferenceIdeal.Run
import proofs.«155369_j85607288143950_1_alg».proof.Proof.Gen.ReferenceIdeal.Read
import proofs.«155369_j85607288143950_1_alg».proof.Proof.Spec
import proofs.«155369_j85607288143950_1_alg».proof.Proof.RefIsLin
import proofs.«155369_j85607288143950_1_alg».proof.Proof.KernelRun
import Idealize.ShloMosaic.Adequacy
import Idealize.ShloMosaic.Init

noncomputable section

namespace Cert.Proof

open Idealize.ShloMosaic Idealize.SL.Sem

/-- The word-level kernel program runs to the end and leaves its arguments as they were. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel program ends with its result at the layer of its arguments, and the
    reference with its result at its one contraction, which is the layer of the same arguments. -/
theorem algebraic : Cert.algebraic_KernelIdeal_ReferenceIdeal := by
  intro m ρ m' ρ' _ hagree
  refine ⟨fun c => Cert.QLinear.Result.layer m c, Cert.QLinear.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.QLinear.Ref.ref_is_lin,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
